-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 31
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4096, .f32⟩
  | .hbm, ⟨28, _⟩ => ⟨S1x4096, .f32⟩
  | .hbm, ⟨29, _⟩ => ⟨S8192x1024, .f32⟩
  | .hbm, ⟨30, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S1024x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S1024x1024, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1024x1024, .f32⟩
  | .hbm, ⟨73, _⟩ => ⟨S8192x1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S1024x1024, .f32⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_3 : Ref sig .tc := ⟨.hbm, 85, rfl⟩
abbrev main_v62 : Ref sig .tc := ⟨.hbm, 86, rfl⟩
abbrev main_v63 : Ref sig .tc := ⟨.hbm, 87, rfl⟩
abbrev main_cst_4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.BitsRun.lean ====
/-
  The run of the fused LSTM-cell program, at any float instance: its ten host operations (three concatenations, two
  roundings to bf16, four bias sums, one recast) and then the one pipelined call over 32 blocks of 256 batch rows.

  The call's body reads its six input blocks whole (the x, h and c rows of the block; the two stacked weight arrays
  and the bias row, which are the same at every block), computes, and overwrites its two output blocks whole. So
  after the body the two output buffers hold one function each of the six input blocks — `hiddenBlock` and
  `cellBlock`, the body's two stored values — whatever they held before, and the input buffers are as they were.
  With that as the pipeline's proof data, the library's frame run gives: every weakly fair execution terminates
  without a fault, each output array ends as the blocks written back, and every other array ends as the call found it;
  no host operation writes an argument array, so the arguments end as launched.
-/
import proofs.«171943_j76398878261544_2_alg».proof.Proof.Gen.Kernel.Launch
import proofs.«171943_j76398878261544_2_alg».proof.Proof.Gen.Kernel.Skeleton
import proofs.«171943_j76398878261544_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- Core `c`'s buffers when the call is entered: the launch contents after the ten host operations. -/
abbrev atEntry (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations, then the call. -/
theorem main_to_call (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-! No host operation writes an argument array: the call finds each as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg15 (c : Dev nD) : atEntry m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg16 (c : Dev nD) : atEntry m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg17 (c : Dev nD) : atEntry m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg18 (c : Dev nD) : atEntry m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's current staging buffer holds its block at every point, fetched there or not (where it is not
    fetched its block index has not moved), for any proof data over the entry contents whose body leaves the block
    in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged, from a run to the library's frame post -/

/-- In a final state satisfying the library's frame post — each array of the call at what the proof data gives, every
    other unscoped buffer as the call found it — the nineteen argument arrays are as launched: three are input
    windows' arrays, sixteen are buffers the call does not stage, and no host operation wrote any of them. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (atEntry_arg0 m c))),
    ((h c).1 1).trans (((dats 0 c).arrAt_in 1 rfl _).trans ((hA c 1).trans (atEntry_arg1 m c))),
    ((h c).1 2).trans (((dats 0 c).arrAt_in 2 rfl _).trans ((hA c 2).trans (atEntry_arg2 m c))),
    ((h c).2 main_arg3 (Pipeline.mem_restRefs_of main_arg3 (by decide) (by decide))).trans (atEntry_arg3 m c),
    ((h c).2 main_arg4 (Pipeline.mem_restRefs_of main_arg4 (by decide) (by decide))).trans (atEntry_arg4 m c),
    ((h c).2 main_arg5 (Pipeline.mem_restRefs_of main_arg5 (by decide) (by decide))).trans (atEntry_arg5 m c),
    ((h c).2 main_arg6 (Pipeline.mem_restRefs_of main_arg6 (by decide) (by decide))).trans (atEntry_arg6 m c),
    ((h c).2 main_arg7 (Pipeline.mem_restRefs_of main_arg7 (by decide) (by decide))).trans (atEntry_arg7 m c),
    ((h c).2 main_arg8 (Pipeline.mem_restRefs_of main_arg8 (by decide) (by decide))).trans (atEntry_arg8 m c),
    ((h c).2 main_arg9 (Pipeline.mem_restRefs_of main_arg9 (by decide) (by decide))).trans (atEntry_arg9 m c),
    ((h c).2 main_arg10 (Pipeline.mem_restRefs_of main_arg10 (by decide) (by decide))).trans (atEntry_arg10 m c),
    ((h c).2 main_arg11 (Pipeline.mem_restRefs_of main_arg11 (by decide) (by decide))).trans (atEntry_arg11 m c),
    ((h c).2 main_arg12 (Pipeline.mem_restRefs_of main_arg12 (by decide) (by decide))).trans (atEntry_arg12 m c),
    ((h c).2 main_arg13 (Pipeline.mem_restRefs_of main_arg13 (by decide) (by decide))).trans (atEntry_arg13 m c),
    ((h c).2 main_arg14 (Pipeline.mem_restRefs_of main_arg14 (by decide) (by decide))).trans (atEntry_arg14 m c),
    ((h c).2 main_arg15 (Pipeline.mem_restRefs_of main_arg15 (by decide) (by decide))).trans (atEntry_arg15 m c),
    ((h c).2 main_arg16 (Pipeline.mem_restRefs_of main_arg16 (by decide) (by decide))).trans (atEntry_arg16 m c),
    ((h c).2 main_arg17 (Pipeline.mem_restRefs_of main_arg17 (by decide) (by decide))).trans (atEntry_arg17 m c),
    ((h c).2 main_arg18 (Pipeline.mem_restRefs_of main_arg18 (by decide) (by decide))).trans (atEntry_arg18 m c)⟩

theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m dats hA r h c) h

/-! ## What the body leaves in its two output buffers -/

/-- The whole of a 256 × 1024 buffer, of a 4096 × 1024 buffer, of the 1 × 4096 bias row. -/
abbrev wholeAct : Rect S256x1024 := Rect.unit (s := S256x1024) ![0, 0] S256x1024.size inb_S256x1024_S256x1024_0_0
abbrev wholeWt : Rect S4096x1024 := Rect.unit (s := S4096x1024) ![0, 0] S4096x1024.size inb_S4096x1024_S4096x1024_0_0
abbrev wholeBias : Rect S1x4096 := Rect.unit (s := S1x4096) ![0, 0] S1x4096.size inb_S1x4096_S1x4096_0_0

/-- The new hidden state of a block, from the block's x, h, c rows, the stacked weights and the bias row: the one
    store into the first output buffer. -/
def hiddenBlock (x0 x1 x2 : Vec F S256x1024 .f32) (x3 x4 : Vec F S4096x1024 .bf16) (x5 : Vec F S1x4096 .f32) : Vec F S256x1024 .f32 :=
  View.canon [⟨wholeAct, k0_pay3 (View.ld x0 wholeAct) (View.ld x1 wholeAct) (View.ld x2 wholeAct) (View.ld x3 wholeWt) (View.ld x4 wholeWt) (View.ld x5 wholeBias)⟩]

/-- The new cell state of a block: the one store into the second output buffer. -/
def cellBlock (x0 x1 x2 : Vec F S256x1024 .f32) (x3 x4 : Vec F S4096x1024 .bf16) (x5 : Vec F S1x4096 .f32) : Vec F S256x1024 .f32 :=
  View.canon [⟨wholeAct, k0_pay2 (View.ld x0 wholeAct) (View.ld x1 wholeAct) (View.ld x2 wholeAct) (View.ld x3 wholeWt) (View.ld x4 wholeWt) (View.ld x5 wholeBias)⟩]

/-- One store of the whole buffer covers it. -/
theorem wholeAct_covers (p0 : Vec F S256x1024 .f32) (y : S256x1024.Idx) :
    ∃ pc ∈ ([⟨wholeAct, p0⟩] : List (View.Piece (Elt F) S256x1024 .f32)), y ∈ pc.1.set :=
  View.cover_of_tiled [⟨wholeAct, p0⟩] S256x1024.size (by rfl) y

/-! ## The body's triple -/

set_option maxHeartbeats 1000000 in
/-- The body on whole staging buffers, the six inputs' at read contents and the two outputs' at anything, runs to the
    continuation with the inputs' as they were and the outputs' at `hiddenBlock` and `cellBlock` of the inputs. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hiddenBlock x0 x1 x2 x3 x4 x5) ∗ owns (c : Thread nD τ) arg8 fullShare (cellBlock x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (wholeAct_covers _)
  iexists _; isplitr
  swap; · iexact H7
  ipureintro
  exact View.read_writes_eq_canon _ _ _ (wholeAct_covers _)

/-! ## The pipeline's proof data -/

/-- On core `c`: the arrays as the call finds them; after the body at point `t` each input buffer at its block and
    the two output buffers at `hiddenBlock` / `cellBlock` of the six input blocks; the invariant is the scoped rest
    and the generator register, untouched; nothing owed; full shares. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenBlock (blockAt m c 0 t) (blockAt m c 1 t) (blockAt m c 2 t) (blockAt m c 3 t) (blockAt m c 4 t) (blockAt m c 5 t)
    | ⟨7, _⟩ => cellBlock (blockAt m c 0 t) (blockAt m c 1 t) (blockAt m c 2 t) (blockAt m c 3 t) (blockAt m c 4 t) (blockAt m c 5 t)
  Φ _ := Pipeline.ΦA spec0 c
  q _ := fullShare
  owed _ := 0

theorem pdat_A (c : Dev nD) (w : Fin cfg0.W) : (pdat m 0 c).A w = atEntry m c (Pipeline.arrRef spec0 w) := by
  dsimp only [pdat]

theorem after_0 (c : Dev nD) (t : Fin cfg0.N) : (pdat m 0 c).after 0 t = blockAt m c 0 t := by dsimp only [pdat]
theorem after_1 (c : Dev nD) (t : Fin cfg0.N) : (pdat m 0 c).after 1 t = blockAt m c 1 t := by dsimp only [pdat]
theorem after_2 (c : Dev nD) (t : Fin cfg0.N) : (pdat m 0 c).after 2 t = blockAt m c 2 t := by dsimp only [pdat]
theorem after_3 (c : Dev nD) (t : Fin cfg0.N) : (pdat m 0 c).after 3 t = blockAt m c 3 t := by dsimp only [pdat]
theorem after_4 (c : Dev nD) (t : Fin cfg0.N) : (pdat m 0 c).after 4 t = blockAt m c 4 t := by dsimp only [pdat]
theorem after_5 (c : Dev nD) (t : Fin cfg0.N) : (pdat m 0 c).after 5 t = blockAt m c 5 t := by dsimp only [pdat]
theorem after_6 (c : Dev nD) (t : Fin cfg0.N) : (pdat m 0 c).after 6 t
    = hiddenBlock (blockAt m c 0 t) (blockAt m c 1 t) (blockAt m c 2 t) (blockAt m c 3 t) (blockAt m c 4 t) (blockAt m c 5 t) := by dsimp only [pdat]
theorem after_7 (c : Dev nD) (t : Fin cfg0.N) : (pdat m 0 c).after 7 t
    = cellBlock (blockAt m c 0 t) (blockAt m c 1 t) (blockAt m c 2 t) (blockAt m c 3 t) (blockAt m c 4 t) (blockAt m c 5 t) := by dsimp only [pdat]

theorem staged_0 (c : Dev nD) (t : Fin cfg0.N) (d) : (pdat m 0 c).before 0 t d = blockAt m c 0 t :=
  staged0_of m (pdat m 0 c) (pdat_A m c 0) (after_0 m c) t d
theorem staged_1 (c : Dev nD) (t : Fin cfg0.N) (d) : (pdat m 0 c).before 1 t d = blockAt m c 1 t :=
  staged1_of m (pdat m 0 c) (pdat_A m c 1) (after_1 m c) t d
theorem staged_2 (c : Dev nD) (t : Fin cfg0.N) (d) : (pdat m 0 c).before 2 t d = blockAt m c 2 t :=
  staged2_of m (pdat m 0 c) (pdat_A m c 2) (after_2 m c) t d
theorem staged_3 (c : Dev nD) (t : Fin cfg0.N) (d) : (pdat m 0 c).before 3 t d = blockAt m c 3 t :=
  staged3_of m (pdat m 0 c) (pdat_A m c 3) (after_3 m c) t d
theorem staged_4 (c : Dev nD) (t : Fin cfg0.N) (d) : (pdat m 0 c).before 4 t d = blockAt m c 4 t :=
  staged4_of m (pdat m 0 c) (pdat_A m c 4) (after_4 m c) t d
theorem staged_5 (c : Dev nD) (t : Fin cfg0.N) (d) : (pdat m 0 c).before 5 t d = blockAt m c 5 t :=
  staged5_of m (pdat m 0 c) (pdat_A m c 5) (after_5 m c) t d

/-! ## The body obligation, at a generic point -/

/-- What the body is called with at point `t`, -/
def atCall (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d)))

/-- and what it returns. -/
def atReturn (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t))

/-- The body at any point: the input buffers hold their blocks, so the body's triple applies; the invariant and what
    the core owes pass through unread. -/
theorem body_at (c : Dev nD) (t : Fin cfg0.N) :
    atCall m c t ⊢ wp frame (wpE (defs₀ (F := F)) Variants.none c none) Set.univ (bodyAt0 t) (fun _ => atReturn m c t) := by
  unfold atCall atReturn bodyAt0
  simp only [staged_0, staged_1, staged_2, staged_3, staged_4, staged_5]
  rw [show (pdat m 0 c).Φ t.succ = (pdat m 0 c).Φ t.castSucc from rfl,
    show (pdat m 0 c).owesAt () t.succ = (pdat m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (pdat (F := F) m 0 c) (defs₀ (F := F)) Variants.none () Set.univ := fun t => by
  rw [bigSep_W0, bigSep_W0]
  exact body_at m c t

/-! ## The run and the frame -/

set_option backward.isDefEq.respectTransparency.types false in
/-- Every weakly fair execution of the program terminates without a fault; at the end every array of the call holds what
    the library computes from the proof data and every other unscoped buffer is as the call found it. -/
theorem run_main : θ_run defs (onTc (τ := τ) (main (F := F))) (s₀ m ρ) (Pipeline.FramePost cfgs (pdat m) 0 (atEntry m)) :=
  Pipeline.θ_run_frame cfgs (pdat m) (0 : Fin 1) launch0 defs₀ Variants.none m ρ main
    (hbody := fun c => (body_obligation m c).loose) (hshare := fun c => (pdat m 0 c).share_full fun _ => rfl)
    (howed := fun _ _ => rfl) (V := atEntry m) (hmain := main_to_call m Variants.none) (hA := pdat_A m) (hΦ := fun _ _ => rfl)

/-- The frame: the program runs and its nineteen argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of_run m ρ (pdat m) (pdat_A m) (run_main m ρ)

end Cert.Kernel.Run

end
-- ==== Proof.IdealRun.lean ====
/-
  The run of the fused LSTM-cell program, at any float instance: its ten host operations (three concatenations, two
  roundings to bf16, four bias sums, one recast) and then the one pipelined call over 32 blocks of 256 batch rows.

  The call's body reads its six input blocks whole (the x, h and c rows of the block; the two stacked weight arrays
  and the bias row, which are the same at every block), computes, and overwrites its two output blocks whole. So
  after the body the two output buffers hold one function each of the six input blocks — `hiddenBlock` and
  `cellBlock`, the body's two stored values — whatever they held before, and the input buffers are as they were.
  With that as the pipeline's proof data, the library's frame run gives: every weakly fair execution terminates
  without a fault, each output array ends as the blocks written back, and every other array ends as the call found it;
  no host operation writes an argument array, so the arguments end as launched.
-/
import proofs.«171943_j76398878261544_2_alg».proof.Proof.Gen.KernelIdeal.Launch
import proofs.«171943_j76398878261544_2_alg».proof.Proof.Gen.KernelIdeal.Skeleton
import proofs.«171943_j76398878261544_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the call -/

/-- Core `c`'s buffers when the call is entered: the launch contents after the ten host operations. -/
abbrev atEntry (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations, then the call. -/
theorem main_to_call (𝒱₀ : Variants) : Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-! No host operation writes an argument array: the call finds each as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg15 (c : Dev nD) : atEntry m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg16 (c : Dev nD) : atEntry m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg17 (c : Dev nD) : atEntry m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))
theorem atEntry_arg18 (c : Dev nD) : atEntry m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes, StableHlo.reshape_writes, Finset.mem_singleton]
    repeat' apply And.intro
    all_goals exact StableHlo.devRef_ne_of_ne (by decide)))

/-! ## The windows' blocks -/

/-- Window `w`'s block at grid point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's current staging buffer holds its block at every point, fetched there or not (where it is not
    fetched its block index has not moved), for any proof data over the entry contents whose body leaves the block
    in place. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem staged5_of {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged, from a run to the library's frame post -/

/-- In a final state satisfying the library's frame post — each array of the call at what the proof data gives, every
    other unscoped buffer as the call found it — the nineteen argument arrays are as launched: three are input
    windows' arrays, sixteen are buffers the call does not stage, and no host operation wrote any of them. -/
theorem args_kept (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (atEntry_arg0 m c))),
    ((h c).1 1).trans (((dats 0 c).arrAt_in 1 rfl _).trans ((hA c 1).trans (atEntry_arg1 m c))),
    ((h c).1 2).trans (((dats 0 c).arrAt_in 2 rfl _).trans ((hA c 2).trans (atEntry_arg2 m c))),
    ((h c).2 main_arg3 (Pipeline.mem_restRefs_of main_arg3 (by decide) (by decide))).trans (atEntry_arg3 m c),
    ((h c).2 main_arg4 (Pipeline.mem_restRefs_of main_arg4 (by decide) (by decide))).trans (atEntry_arg4 m c),
    ((h c).2 main_arg5 (Pipeline.mem_restRefs_of main_arg5 (by decide) (by decide))).trans (atEntry_arg5 m c),
    ((h c).2 main_arg6 (Pipeline.mem_restRefs_of main_arg6 (by decide) (by decide))).trans (atEntry_arg6 m c),
    ((h c).2 main_arg7 (Pipeline.mem_restRefs_of main_arg7 (by decide) (by decide))).trans (atEntry_arg7 m c),
    ((h c).2 main_arg8 (Pipeline.mem_restRefs_of main_arg8 (by decide) (by decide))).trans (atEntry_arg8 m c),
    ((h c).2 main_arg9 (Pipeline.mem_restRefs_of main_arg9 (by decide) (by decide))).trans (atEntry_arg9 m c),
    ((h c).2 main_arg10 (Pipeline.mem_restRefs_of main_arg10 (by decide) (by decide))).trans (atEntry_arg10 m c),
    ((h c).2 main_arg11 (Pipeline.mem_restRefs_of main_arg11 (by decide) (by decide))).trans (atEntry_arg11 m c),
    ((h c).2 main_arg12 (Pipeline.mem_restRefs_of main_arg12 (by decide) (by decide))).trans (atEntry_arg12 m c),
    ((h c).2 main_arg13 (Pipeline.mem_restRefs_of main_arg13 (by decide) (by decide))).trans (atEntry_arg13 m c),
    ((h c).2 main_arg14 (Pipeline.mem_restRefs_of main_arg14 (by decide) (by decide))).trans (atEntry_arg14 m c),
    ((h c).2 main_arg15 (Pipeline.mem_restRefs_of main_arg15 (by decide) (by decide))).trans (atEntry_arg15 m c),
    ((h c).2 main_arg16 (Pipeline.mem_restRefs_of main_arg16 (by decide) (by decide))).trans (atEntry_arg16 m c),
    ((h c).2 main_arg17 (Pipeline.mem_restRefs_of main_arg17 (by decide) (by decide))).trans (atEntry_arg17 m c),
    ((h c).2 main_arg18 (Pipeline.mem_restRefs_of main_arg18 (by decide) (by decide))).trans (atEntry_arg18 m c)⟩

theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m dats hA r h c) h

/-! ## What the body leaves in its two output buffers -/

/-- The whole of a 256 × 1024 buffer, of a 4096 × 1024 buffer, of the 1 × 4096 bias row. -/
abbrev wholeAct : Rect S256x1024 := Rect.unit (s := S256x1024) ![0, 0] S256x1024.size inb_S256x1024_S256x1024_0_0
abbrev wholeWt : Rect S4096x1024 := Rect.unit (s := S4096x1024) ![0, 0] S4096x1024.size inb_S4096x1024_S4096x1024_0_0
abbrev wholeBias : Rect S1x4096 := Rect.unit (s := S1x4096) ![0, 0] S1x4096.size inb_S1x4096_S1x4096_0_0

/-- The new hidden state of a block, from the block's x, h, c rows, the stacked weights and the bias row: the one
    store into the first output buffer. -/
def hiddenBlock (x0 x1 x2 : Vec F S256x1024 .f32) (x3 x4 : Vec F S4096x1024 .bf16) (x5 : Vec F S1x4096 .f32) : Vec F S256x1024 .f32 :=
  View.canon [⟨wholeAct, k0_pay3 (View.ld x0 wholeAct) (View.ld x1 wholeAct) (View.ld x2 wholeAct) (View.ld x3 wholeWt) (View.ld x4 wholeWt) (View.ld x5 wholeBias)⟩]

/-- The new cell state of a block: the one store into the second output buffer. -/
def cellBlock (x0 x1 x2 : Vec F S256x1024 .f32) (x3 x4 : Vec F S4096x1024 .bf16) (x5 : Vec F S1x4096 .f32) : Vec F S256x1024 .f32 :=
  View.canon [⟨wholeAct, k0_pay2 (View.ld x0 wholeAct) (View.ld x1 wholeAct) (View.ld x2 wholeAct) (View.ld x3 wholeWt) (View.ld x4 wholeWt) (View.ld x5 wholeBias)⟩]

/-- One store of the whole buffer covers it. -/
theorem wholeAct_covers (p0 : Vec F S256x1024 .f32) (y : S256x1024.Idx) :
    ∃ pc ∈ ([⟨wholeAct, p0⟩] : List (View.Piece (Elt F) S256x1024 .f32)), y ∈ pc.1.set :=
  View.cover_of_tiled [⟨wholeAct, p0⟩] S256x1024.size (by rfl) y

/-! ## The body's triple -/

set_option maxHeartbeats 1000000 in
/-- The body on whole staging buffers, the six inputs' at read contents and the two outputs' at anything, runs to the
    continuation with the inputs' as they were and the outputs' at `hiddenBlock` and `cellBlock` of the inputs. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S4096x1024 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (hiddenBlock x0 x1 x2 x3 x4 x5) ∗ owns (c : Thread nD τ) arg8 fullShare (cellBlock x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (wholeAct_covers _)
  iexists _; isplitr
  swap; · iexact H7
  ipureintro
  exact View.read_writes_eq_canon _ _ _ (wholeAct_covers _)

/-! ## The pipeline's proof data -/

/-- On core `c`: the arrays as the call finds them; after the body at point `t` each input buffer at its block and
    the two output buffers at `hiddenBlock` / `cellBlock` of the six input blocks; the invariant is the scoped rest
    and the generator register, untouched; nothing owed; full shares. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenBlock (blockAt m c 0 t) (blockAt m c 1 t) (blockAt m c 2 t) (blockAt m c 3 t) (blockAt m c 4 t) (blockAt m c 5 t)
    | ⟨7, _⟩ => cellBlock (blockAt m c 0 t) (blockAt m c 1 t) (blockAt m c 2 t) (blockAt m c 3 t) (blockAt m c 4 t) (blockAt m c 5 t)
  Φ _ := Pipeline.ΦA spec0 c
  q _ := fullShare
  owed _ := 0

theorem pdat_A (c : Dev nD) (w : Fin cfg0.W) : (pdat m 0 c).A w = atEntry m c (Pipeline.arrRef spec0 w) := by
  dsimp only [pdat]

theorem after_0 (c : Dev nD) (t : Fin cfg0.N) : (pdat m 0 c).after 0 t = blockAt m c 0 t := by dsimp only [pdat]
theorem after_1 (c : Dev nD) (t : Fin cfg0.N) : (pdat m 0 c).after 1 t = blockAt m c 1 t := by dsimp only [pdat]
theorem after_2 (c : Dev nD) (t : Fin cfg0.N) : (pdat m 0 c).after 2 t = blockAt m c 2 t := by dsimp only [pdat]
theorem after_3 (c : Dev nD) (t : Fin cfg0.N) : (pdat m 0 c).after 3 t = blockAt m c 3 t := by dsimp only [pdat]
theorem after_4 (c : Dev nD) (t : Fin cfg0.N) : (pdat m 0 c).after 4 t = blockAt m c 4 t := by dsimp only [pdat]
theorem after_5 (c : Dev nD) (t : Fin cfg0.N) : (pdat m 0 c).after 5 t = blockAt m c 5 t := by dsimp only [pdat]
theorem after_6 (c : Dev nD) (t : Fin cfg0.N) : (pdat m 0 c).after 6 t
    = hiddenBlock (blockAt m c 0 t) (blockAt m c 1 t) (blockAt m c 2 t) (blockAt m c 3 t) (blockAt m c 4 t) (blockAt m c 5 t) := by dsimp only [pdat]
theorem after_7 (c : Dev nD) (t : Fin cfg0.N) : (pdat m 0 c).after 7 t
    = cellBlock (blockAt m c 0 t) (blockAt m c 1 t) (blockAt m c 2 t) (blockAt m c 3 t) (blockAt m c 4 t) (blockAt m c 5 t) := by dsimp only [pdat]

theorem staged_0 (c : Dev nD) (t : Fin cfg0.N) (d) : (pdat m 0 c).before 0 t d = blockAt m c 0 t :=
  staged0_of m (pdat m 0 c) (pdat_A m c 0) (after_0 m c) t d
theorem staged_1 (c : Dev nD) (t : Fin cfg0.N) (d) : (pdat m 0 c).before 1 t d = blockAt m c 1 t :=
  staged1_of m (pdat m 0 c) (pdat_A m c 1) (after_1 m c) t d
theorem staged_2 (c : Dev nD) (t : Fin cfg0.N) (d) : (pdat m 0 c).before 2 t d = blockAt m c 2 t :=
  staged2_of m (pdat m 0 c) (pdat_A m c 2) (after_2 m c) t d
theorem staged_3 (c : Dev nD) (t : Fin cfg0.N) (d) : (pdat m 0 c).before 3 t d = blockAt m c 3 t :=
  staged3_of m (pdat m 0 c) (pdat_A m c 3) (after_3 m c) t d
theorem staged_4 (c : Dev nD) (t : Fin cfg0.N) (d) : (pdat m 0 c).before 4 t d = blockAt m c 4 t :=
  staged4_of m (pdat m 0 c) (pdat_A m c 4) (after_4 m c) t d
theorem staged_5 (c : Dev nD) (t : Fin cfg0.N) (d) : (pdat m 0 c).before 5 t d = blockAt m c 5 t :=
  staged5_of m (pdat m 0 c) (pdat_A m c 5) (after_5 m c) t d

/-! ## The body obligation, at a generic point -/

/-- What the body is called with at point `t`, -/
def atCall (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d)))

/-- and what it returns. -/
def atReturn (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t))

/-- The body at any point: the input buffers hold their blocks, so the body's triple applies; the invariant and what
    the core owes pass through unread. -/
theorem body_at (c : Dev nD) (t : Fin cfg0.N) :
    atCall m c t ⊢ wp frame (wpE (defs₀ (F := F)) Variants.none c none) Set.univ (bodyAt0 t) (fun _ => atReturn m c t) := by
  unfold atCall atReturn bodyAt0
  simp only [staged_0, staged_1, staged_2, staged_3, staged_4, staged_5]
  rw [show (pdat m 0 c).Φ t.succ = (pdat m 0 c).Φ t.castSucc from rfl,
    show (pdat m 0 c).owesAt () t.succ = (pdat m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ (grid0.coords t) _ _ _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (pdat (F := F) m 0 c) (defs₀ (F := F)) Variants.none () Set.univ := fun t => by
  rw [bigSep_W0, bigSep_W0]
  exact body_at m c t

/-! ## The run and the frame -/

set_option backward.isDefEq.respectTransparency.types false in
/-- Every weakly fair execution of the program terminates without a fault; at the end every array of the call holds what
    the library computes from the proof data and every other unscoped buffer is as the call found it. -/
theorem run_main : θ_run defs (onTc (τ := τ) (main (F := F))) (s₀ m ρ) (Pipeline.FramePost cfgs (pdat m) 0 (atEntry m)) :=
  Pipeline.θ_run_frame cfgs (pdat m) (0 : Fin 1) launch0 defs₀ Variants.none m ρ main
    (hbody := fun c => (body_obligation m c).loose) (hshare := fun c => (pdat m 0 c).share_full fun _ => rfl)
    (howed := fun _ _ => rfl) (V := atEntry m) (hmain := main_to_call m Variants.none) (hA := pdat_A m) (hΦ := fun _ _ => rfl)

/-- The frame: the program runs and its nineteen argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of_run m ρ (pdat m) (pdat_A m) (run_main m ρ)

end Cert.KernelIdeal.Run

end
-- ==== Proof.LstmSpec.lean ====
/-
  The LSTM cell this certificate is about, as one function of the nineteen argument arrays over the extended reals.

  For a batch row `r` and a hidden unit `n`, each of the four gates (forget, input, candidate, output) has the
  pre-activation  Σₖ x[r,k]·Wᵢ[n,k] + bᵢ[n] + Σₖ h[r,k]·Wₕ[n,k] + bₕ[n]  (two linear layers, weights stored (out, in)).
  The new cell state is  σ(f)·c + σ(i)·tanh(g)  and the new hidden state  σ(o)·tanh(c').

  A fused arrangement computes the same pre-activation as  (Σₖ x·Wᵢ + Σₖ h·Wₕ) + (bᵢ + bₕ): on the extended reals
  addition is commutative and associative at the infinities too, so the two arrangements agree with no finiteness
  hypothesis (`gatePre_fused`).
-/
import Idealize.ShloMosaic.PureOps.Ideal
import Idealize.ShloMosaic.Lib.ValueIdx

noncomputable section

open scoped BigOperators

namespace Cert.LstmSpec

open Idealize.ShloMosaic Idealize.ShloMosaic.ValueIdx

/-- A batch of activations: 8192 rows of 1024 features. -/
abbrev Act : Type := FVec Ideal (⟨2, ![8192, 1024]⟩ : Shape) .f32
/-- One linear layer's weight, stored (out, in). -/
abbrev Wt : Type := FVec Ideal (⟨2, ![1024, 1024]⟩ : Shape) .f32
/-- One linear layer's bias. -/
abbrev Bias : Type := FVec Ideal (⟨1, ![1024]⟩ : Shape) .f32

/-- One gate's pre-activation at row `r`, unit `n`: the input layer's output plus the hidden layer's. -/
def gatePre (x h : Act) (wi : Wt) (bi : Bias) (wh : Wt) (bh : Bias) (r : Fin 8192) (n : Fin 1024) : EReal :=
  (∑ k : Fin 1024, x (ix2 r k) * wi (ix2 n k)) + bi (ix1 n) + (∑ k : Fin 1024, h (ix2 r k) * wh (ix2 n k)) + bh (ix1 n)

/-- The two matrix products first, the two biases summed apart: the same number. -/
theorem gatePre_fused (x h : Act) (wi : Wt) (bi : Bias) (wh : Wt) (bh : Bias) (r : Fin 8192) (n : Fin 1024) :
    ((∑ k : Fin 1024, x (ix2 r k) * wi (ix2 n k)) + (∑ k : Fin 1024, h (ix2 r k) * wh (ix2 n k))) + (bi (ix1 n) + bh (ix1 n))
      = gatePre x h wi bi wh bh r n := by
  unfold gatePre
  rw [add_add_add_comm, ← add_assoc]

/-- The new cell state at row `r`, unit `n`. -/
def cellAt (x h c : Act) (wfi : Wt) (bfi : Bias) (wfh : Wt) (bfh : Bias) (wii : Wt) (bii : Bias) (wih : Wt) (bih : Bias)
    (wgi : Wt) (bgi : Bias) (wgh : Wt) (bgh : Bias) (r : Fin 8192) (n : Fin 1024) : EReal :=
  Ideal.logistic (gatePre x h wfi bfi wfh bfh r n) * c (ix2 r n)
    + Ideal.logistic (gatePre x h wii bii wih bih r n) * Ideal.tanh (gatePre x h wgi bgi wgh bgh r n)

/-- The new hidden state at row `r`, unit `n`. -/
def hiddenAt (x h c : Act) (wfi : Wt) (bfi : Bias) (wfh : Wt) (bfh : Bias) (wii : Wt) (bii : Bias) (wih : Wt) (bih : Bias)
    (wgi : Wt) (bgi : Bias) (wgh : Wt) (bgh : Bias) (woi : Wt) (boi : Bias) (woh : Wt) (boh : Bias)
    (r : Fin 8192) (n : Fin 1024) : EReal :=
  Ideal.logistic (gatePre x h woi boi woh boh r n)
    * Ideal.tanh (cellAt x h c wfi bfi wfh bfh wii bii wih bih wgi bgi wgh bgh r n)

/-- The new cell state, the whole array. -/
def cellNext (x h c : Act) (wfi : Wt) (bfi : Bias) (wfh : Wt) (bfh : Bias) (wii : Wt) (bii : Bias) (wih : Wt) (bih : Bias)
    (wgi : Wt) (bgi : Bias) (wgh : Wt) (bgh : Bias) : Act :=
  fun j => cellAt x h c wfi bfi wfh bfh wii bii wih bih wgi bgi wgh bgh (j 0) (j 1)

/-- The new hidden state, the whole array. -/
def hiddenNext (x h c : Act) (wfi : Wt) (bfi : Bias) (wfh : Wt) (bfh : Bias) (wii : Wt) (bii : Bias) (wih : Wt) (bih : Bias)
    (wgi : Wt) (bgi : Bias) (wgh : Wt) (bgh : Bias) (woi : Wt) (boi : Bias) (woh : Wt) (boh : Bias) : Act :=
  fun j => hiddenAt x h c wfi bfi wfh bfh wii bii wih bih wgi bgi wgh bgh woi boi woh boh (j 0) (j 1)

/-! ## The fused form, on one block of 256 rows -/

/-- A block of 256 batch rows. -/
abbrev ActBlk : Type := FVec Ideal (⟨2, ![256, 1024]⟩ : Shape) .f32
/-- Four layers' weights stacked along the output axis (forget, input, candidate, output). -/
abbrev WtCat : Type := FVec Ideal (⟨2, ![4096, 1024]⟩ : Shape) .bf16
/-- Four gates' summed biases laid side by side in one row. -/
abbrev BiasCat : Type := FVec Ideal (⟨2, ![1, 4096]⟩ : Shape) .f32

/-- Column `o + q` of the stacked layout: unit `q` of the gate whose columns start at `o`. -/
abbrev gcol (o : Nat) (ho : o + 1024 ≤ 4096) (q : Fin 1024) : Fin 4096 := ⟨o + q.val, by omega⟩

/-- The fused pre-activation of block row `p` at stacked column `j`. -/
def fusedPre (xb hb : ActBlk) (w u : WtCat) (b : BiasCat) (p : Fin 256) (j : Fin 4096) : EReal :=
  ((∑ k : Fin 1024, xb (ix2 p k) * w (ix2 j k)) + (∑ k : Fin 1024, hb (ix2 p k) * u (ix2 j k))) + b (ix2 (0 : Fin 1) j)

/-- The new cell state of block row `p`, unit `q`, from the fused pre-activations. -/
def fusedCell (xb hb cb : ActBlk) (w u : WtCat) (b : BiasCat) (p : Fin 256) (q : Fin 1024) : EReal :=
  Ideal.logistic (fusedPre xb hb w u b p (gcol 0 (by omega) q)) * cb (ix2 p q)
    + Ideal.logistic (fusedPre xb hb w u b p (gcol 1024 (by omega) q)) * Ideal.tanh (fusedPre xb hb w u b p (gcol 2048 (by omega) q))

/-- The new hidden state of block row `p`, unit `q`, from the fused pre-activations. -/
def fusedHidden (xb hb cb : ActBlk) (w u : WtCat) (b : BiasCat) (p : Fin 256) (q : Fin 1024) : EReal :=
  Ideal.logistic (fusedPre xb hb w u b p (gcol 3072 (by omega) q)) * Ideal.tanh (fusedCell xb hb cb w u b p q)

end Cert.LstmSpec

end
-- ==== Proof.HostStage.lean ====
/-
  The three arrays the kernel's call is handed that are not arguments of the program: the four input-side weights
  stacked along the output axis (forget, input, candidate, output) and rounded to bf16, the four hidden-side weights
  likewise, and the four gates' summed biases laid side by side as one row of 4096. Each as one function of the
  argument arrays it is computed from, in the operations' own words, at any float instance.
-/
import proofs.«171943_j76398878261544_2_alg».proof.Proof.Gen.KernelIdeal

noncomputable section

namespace Cert.KernelIdeal.Stage

open Idealize.ShloMosaic Cert.KernelIdeal Cert.KernelIdeal.Gen

variable {F : FTy → Type} [FloatOps F]

/-- Four (out, in) weights stacked along the output axis, then rounded to bf16: row `g·1024 + n` is row `n` of the
    `g`-th weight. -/
def stackW (w0 w1 w2 w3 : (⟨S1024x1024, .f32⟩ : BufTy).Contents (Elt F)) : (⟨S4096x1024, .bf16⟩ : BufTy).Contents (Elt F) :=
  truncf .bf16 (concatenate S4096x1024 0 [⟨S1024x1024, w0⟩, ⟨S1024x1024, w1⟩, ⟨S1024x1024, w2⟩, ⟨S1024x1024, w3⟩]
    concatenates_S1024x1024_S1024x1024_S1024x1024_S1024x1024_S4096x1024_d0) bitsLt_bf16_f32

/-- Four gates' biases, each the sum of its input-side and hidden-side bias, laid end to end and recast as one row:
    column `g·1024 + n` is `b(2g)[n] + b(2g+1)[n]`. -/
def stackB (b0 b1 b2 b3 b4 b5 b6 b7 : (⟨S1024, .f32⟩ : BufTy).Contents (Elt F)) : (⟨S1x4096, .f32⟩ : BufTy).Contents (Elt F) :=
  shapeCast S1x4096 (concatenate S4096 0 [⟨S1024, addf b0 b1⟩, ⟨S1024, addf b2 b3⟩, ⟨S1024, addf b4 b5⟩, ⟨S1024, addf b6 b7⟩]
    concatenates_S1024_S1024_S1024_S1024_S4096_d0) shapeCasts_S4096_S1x4096

end Cert.KernelIdeal.Stage

end
-- ==== Proof.FusedBody.lean ====
/-
  The kernel body's arithmetic read at one index, and the stacked parameters read at one index.

  The body forms, for a block of 256 batch rows, the fused pre-activation
      pre[p, j] = (Σₖ x[p,k]·W[j,k] + Σₖ h[p,k]·U[j,k]) + b[0, j]          (j over the 4096 stacked columns)
  — two matrix products into a zero accumulator, both operands contracted on their last axis, a narrowing of the
  left operands that is the identity on the extended reals, shape casts of a shape to itself, and one row of
  biases repeated over the 256 rows — and from its four column bands (forget, input, candidate, output: columns
  0, 1024, 2048, 3072 + q) the new cell state  σ(f)·c + σ(i)·tanh(g)  and the new hidden state  σ(o)·tanh(c').
  Each stored value, at row `p` and unit `q`, is the specification's fused form (`pay1_apply`, `pay2_apply`,
  `pay3_apply`).

  The parameters the body is handed are stacks: four (out, in) weights laid one under another along the output
  axis, and four summed biases laid end to end as one row. Row `g·1024 + n` of the weight stack is row `n` of the
  `g`-th weight (`stackW_apply`); column `g·1024 + n` of the bias row is the sum of the `g`-th pair of biases at
  `n` (`stackB_apply`).
-/
import proofs.«171943_j76398878261544_2_alg».proof.Proof.Gen.KernelIdeal.Skeleton
import proofs.«171943_j76398878261544_2_alg».proof.Proof.LstmSpec
import proofs.«171943_j76398878261544_2_alg».proof.Proof.HostStage
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BodyValue

open Idealize.ShloMosaic Idealize.ShloMosaic.ValueIdx Cert.KernelIdeal Cert.KernelIdeal.Gen Cert.LstmSpec

/-! ## A matrix product of the body at an index -/

/-- The dimension numbers of the body's two matrix products: both operands contracted on their last axis. -/
abbrev mmDims : DotDims S256x1024 S4096x1024 S256x4096 := dot_S256x1024_S4096x1024_S256x4096_1_1_0_0_n_n

/-- The left operand is read, on its free axis, at the result's row. -/
theorem lhs_free (i : S256x4096.Idx) (q : mmDims.contr.Idx) : (mmDims.lhsIdx i q 0).val = (i 0).val := by
  unfold DotDims.lhsIdx
  rw [dif_neg (show ¬(0 : Fin S256x1024.rank) ∈ mmDims.lhsBatch by decide),
    dif_pos (show (0 : Fin S256x1024.rank) ∈ mmDims.lhsNonContracting by decide)]
  rfl

/-- The left operand is read, on its last axis, at the contraction position. -/
theorem lhs_contr (i : S256x4096.Idx) (q : mmDims.contr.Idx) : (mmDims.lhsIdx i q 1).val = (q ⟨0, by decide⟩).val :=
  mmDims.lhsIdx_val_of_single rfl i q

/-- The right operand is read, on its free axis (its rows), at the result's column. -/
theorem rhs_free (i : S256x4096.Idx) (q : mmDims.contr.Idx) : (mmDims.rhsIdx i q 0).val = (i 1).val := by
  unfold DotDims.rhsIdx
  rw [dif_neg (show ¬(0 : Fin S4096x1024.rank) ∈ mmDims.rhsBatch by decide),
    dif_pos (show (0 : Fin S4096x1024.rank) ∈ mmDims.rhsNonContracting by decide)]
  rfl

/-- The right operand is read, on its last axis, at the contraction position. -/
theorem rhs_contr (i : S256x4096.Idx) (q : mmDims.contr.Idx) : (mmDims.rhsIdx i q 1).val = (q ⟨0, by decide⟩).val :=
  mmDims.rhsIdx_val_of_single rfl i q

/-- A product into the zero accumulator, read at row `p`, column `j`: the sum over `k` of the left operand's row `p`
    times the right operand's row `j`. -/
theorem matmul_zero_apply (l : FVec Ideal S256x1024 .bf16) (r : FVec Ideal S4096x1024 .bf16) (p : Fin 256) (j : Fin 4096) :
    matmul mmDims none l r (constant (F := Ideal) S256x4096 .f32 0x00000000#32) (ix2 p j)
      = ∑ k : Fin 1024, l (ix2 p k) * r (ix2 j k) := by
  refine (Ideal.matmul_constant_zero_apply mmDims none l r (ix2 p j)).trans ?_
  rw [← Equiv.sum_comp (contrEquiv1 mmDims 1024 rfl rfl).symm]
  refine Finset.sum_congr rfl fun k _ => ?_
  have hk := contrEquiv1_symm_val mmDims 1024 rfl rfl k
  have el : mmDims.lhsIdx (ix2 p j) ((contrEquiv1 mmDims 1024 rfl rfl).symm k) = ix2 p k := funext fun a => Fin.ext (by
    match a with
    | ⟨0, _⟩ => exact lhs_free _ _
    | ⟨1, _⟩ => exact (lhs_contr _ _).trans hk)
  have er : mmDims.rhsIdx (ix2 p j) ((contrEquiv1 mmDims 1024 rfl rfl).symm k) = ix2 j k := funext fun a => Fin.ext (by
    match a with
    | ⟨0, _⟩ => exact rhs_free _ _
    | ⟨1, _⟩ => exact (rhs_contr _ _).trans hk)
  rw [el, er]

/-! ## The body's three stored values at an index -/

/-- The body's pre-activation block at row `p`, stacked column `j`. -/
theorem pay1_apply (x0 x2 : Vec Ideal S256x1024 .f32) (v5 v7 : Vec Ideal S4096x1024 .bf16) (v12 : Vec Ideal S1x4096 .f32)
    (p : Fin 256) (j : Fin 4096) :
    Gen.k0_pay1 (F := Ideal) x0 x2 v5 v7 v12 (ix2 p j) = fusedPre x0 x2 v5 v7 v12 p j := by
  unfold Gen.k0_pay1 fusedPre
  rw [shapeCast_self v5, shapeCast_self v7, shapeCast_self v12]
  refine (addf_apply _ _ _).trans ?_
  refine congrArg₂ (· + ·) ((addf_apply _ _ _).trans (congrArg₂ (· + ·) ?_ ?_)) ?_
  · exact matmul_zero_apply _ v5 p j
  · exact matmul_zero_apply _ v7 p j
  · exact broadcastTo_1b_ab_apply v12 _ p j

/-- Column `o + q` of the pre-activation block, read through the slice of 1024 columns that starts at column `o`. -/
theorem slice_pay1 (o : Nat) (ho : o + 1024 ≤ 4096) (h : S256x4096.Slices ![0, o] S256x1024)
    (x0 x2 : Vec Ideal S256x1024 .f32) (v5 v7 : Vec Ideal S4096x1024 .bf16) (v12 : Vec Ideal S1x4096 .f32)
    (p : Fin 256) (q : Fin 1024) :
    extractStridedSlice S256x1024 ![0, o] (Gen.k0_pay1 (F := Ideal) x0 x2 v5 v7 v12) h (ix2 p q)
      = fusedPre x0 x2 v5 v7 v12 p (gcol o ho q) :=
  (slice2_axis1_apply o _ h p q (gcol o ho q) rfl).trans (pay1_apply x0 x2 v5 v7 v12 p (gcol o ho q))

/-- The new cell state the body stores, at row `p`, unit `q`. -/
theorem pay2_apply (x0 x2 x4 : Vec Ideal S256x1024 .f32) (v5 v7 : Vec Ideal S4096x1024 .bf16) (v12 : Vec Ideal S1x4096 .f32)
    (p : Fin 256) (q : Fin 1024) :
    Gen.k0_pay2 (F := Ideal) x0 x2 x4 v5 v7 v12 (ix2 p q) = fusedCell x0 x2 x4 v5 v7 v12 p q := by
  unfold Gen.k0_pay2 fusedCell
  refine (addf_apply _ _ _).trans (congrArg₂ (· + ·) ((mulf_apply _ _ _).trans (congrArg₂ (· * ·) ?_ rfl))
    ((mulf_apply _ _ _).trans (congrArg₂ (· * ·) ?_ ?_)))
  · exact congrArg Ideal.logistic (slice_pay1 0 (by omega) _ x0 x2 v5 v7 v12 p q)
  · exact congrArg Ideal.logistic (slice_pay1 1024 (by omega) _ x0 x2 v5 v7 v12 p q)
  · exact congrArg Ideal.tanh (slice_pay1 2048 (by omega) _ x0 x2 v5 v7 v12 p q)

/-- The new hidden state the body stores, at row `p`, unit `q`. -/
theorem pay3_apply (x0 x2 x4 : Vec Ideal S256x1024 .f32) (v5 v7 : Vec Ideal S4096x1024 .bf16) (v12 : Vec Ideal S1x4096 .f32)
    (p : Fin 256) (q : Fin 1024) :
    Gen.k0_pay3 (F := Ideal) x0 x2 x4 v5 v7 v12 (ix2 p q) = fusedHidden x0 x2 x4 v5 v7 v12 p q := by
  unfold Gen.k0_pay3 fusedHidden
  refine (mulf_apply _ _ _).trans (congrArg₂ (· * ·) ?_ ?_)
  · exact congrArg Ideal.logistic (slice_pay1 3072 (by omega) _ x0 x2 v5 v7 v12 p q)
  · exact congrArg Ideal.tanh (pay2_apply x0 x2 x4 v5 v7 v12 p q)

/-! ## The stacked parameters at an index -/

/-- Four (out, in) weights laid one under another along the output axis: row `o + n` of the stack, for `o` the start of
    piece `g`, is row `n` of that piece. -/
theorem catW_piece (w0 w1 w2 w3 : (⟨S1024x1024, .f32⟩ : BufTy).Contents (Elt Ideal))
    (g : Nat) (hg : g < 4) (x : S1024x1024.Idx → Elt Ideal .f32)
    (hx : ([⟨S1024x1024, w0⟩, ⟨S1024x1024, w1⟩, ⟨S1024x1024, w2⟩, ⟨S1024x1024, w3⟩] :
      List ((s : Shape) × (s.Idx → Elt Ideal .f32)))[g] = ⟨S1024x1024, x⟩)
    (o : Nat) (ho : o + 1024 ≤ 4096)
    (hpre : (((([⟨S1024x1024, w0⟩, ⟨S1024x1024, w1⟩, ⟨S1024x1024, w2⟩, ⟨S1024x1024, w3⟩] :
      List ((s : Shape) × (s.Idx → Elt Ideal .f32))).take g).map (·.1)).map fun s =>
        if h : s.rank = S4096x1024.rank then s.size ((0 : Fin S4096x1024.rank).cast h.symm) else 0).sum = o)
    (n k : Fin 1024) :
    concatenate S4096x1024 0 [⟨S1024x1024, w0⟩, ⟨S1024x1024, w1⟩, ⟨S1024x1024, w2⟩, ⟨S1024x1024, w3⟩]
      concatenates_S1024x1024_S1024x1024_S1024x1024_S1024x1024_S4096x1024_d0 (ix2 (gcol o ho n) k) = x (ix2 n k) :=
  concatenate_apply_piece (0 : Fin S4096x1024.rank) [⟨S1024x1024, w0⟩, ⟨S1024x1024, w1⟩, ⟨S1024x1024, w2⟩, ⟨S1024x1024, w3⟩]
    concatenates_S1024x1024_S1024x1024_S1024x1024_S1024x1024_S4096x1024_d0 (ix2 (gcol o ho n) k) g hg S1024x1024 x hx rfl o hpre (ix2 n k)
    (fun b hb => by
      match b with
      | ⟨0, _⟩ => exact absurd (Fin.ext rfl) hb
      | ⟨1, _⟩ => rfl)
    rfl

/-- The stacked, narrowed weights at row `g·1024 + n`, column `k`: the `g`-th weight at `(n, k)` (the narrowing is the
    identity on the extended reals). -/
theorem stackW_apply (w0 w1 w2 w3 : (⟨S1024x1024, .f32⟩ : BufTy).Contents (Elt Ideal)) (n k : Fin 1024) :
    Stage.stackW (F := Ideal) w0 w1 w2 w3 (ix2 (gcol 0 (by omega) n) k) = w0 (ix2 n k)
    ∧ Stage.stackW (F := Ideal) w0 w1 w2 w3 (ix2 (gcol 1024 (by omega) n) k) = w1 (ix2 n k)
    ∧ Stage.stackW (F := Ideal) w0 w1 w2 w3 (ix2 (gcol 2048 (by omega) n) k) = w2 (ix2 n k)
    ∧ Stage.stackW (F := Ideal) w0 w1 w2 w3 (ix2 (gcol 3072 (by omega) n) k) = w3 (ix2 n k) := by
  unfold Stage.stackW
  refine ⟨?_, ?_, ?_, ?_⟩ <;> refine (truncf_apply (φ := .f32) (ψ := .bf16) _ bitsLt_bf16_f32 _).trans ?_
  · exact catW_piece w0 w1 w2 w3 0 (by decide) w0 rfl 0 _ rfl n k
  · exact catW_piece w0 w1 w2 w3 1 (by decide) w1 rfl 1024 _ rfl n k
  · exact catW_piece w0 w1 w2 w3 2 (by decide) w2 rfl 2048 _ rfl n k
  · exact catW_piece w0 w1 w2 w3 3 (by decide) w3 rfl 3072 _ rfl n k

/-- Four bias vectors laid end to end: entry `o + n`, for `o` the start of piece `g`, is entry `n` of that piece. -/
theorem catB_piece (c0 c1 c2 c3 : S1024.Idx → Elt Ideal .f32)
    (g : Nat) (hg : g < 4) (x : S1024.Idx → Elt Ideal .f32)
    (hx : ([⟨S1024, c0⟩, ⟨S1024, c1⟩, ⟨S1024, c2⟩, ⟨S1024, c3⟩] : List ((s : Shape) × (s.Idx → Elt Ideal .f32)))[g] = ⟨S1024, x⟩)
    (o : Nat) (ho : o + 1024 ≤ 4096)
    (hpre : (((([⟨S1024, c0⟩, ⟨S1024, c1⟩, ⟨S1024, c2⟩, ⟨S1024, c3⟩] : List ((s : Shape) × (s.Idx → Elt Ideal .f32))).take g).map (·.1)).map
      fun s => if h : s.rank = S4096.rank then s.size ((0 : Fin S4096.rank).cast h.symm) else 0).sum = o)
    (n : Fin 1024) :
    concatenate S4096 0 [⟨S1024, c0⟩, ⟨S1024, c1⟩, ⟨S1024, c2⟩, ⟨S1024, c3⟩]
      concatenates_S1024_S1024_S1024_S1024_S4096_d0 (ix1 (gcol o ho n)) = x (ix1 n) :=
  concatenate_apply_piece (0 : Fin S4096.rank) [⟨S1024, c0⟩, ⟨S1024, c1⟩, ⟨S1024, c2⟩, ⟨S1024, c3⟩]
    concatenates_S1024_S1024_S1024_S1024_S4096_d0 (ix1 (gcol o ho n)) g hg S1024 x hx rfl o hpre (ix1 n)
    (fun b hb => by
      match b with
      | ⟨0, _⟩ => exact absurd (Fin.ext rfl) hb)
    rfl

/-- The row of summed biases at column `g·1024 + n`: the `g`-th pair of biases at `n`, added (the cast of the 4096
    entries to one row keeps the entry's position). -/
theorem stackB_apply (b0 b1 b2 b3 b4 b5 b6 b7 : (⟨S1024, .f32⟩ : BufTy).Contents (Elt Ideal)) (n : Fin 1024) :
    Stage.stackB (F := Ideal) b0 b1 b2 b3 b4 b5 b6 b7 (ix2 (0 : Fin 1) (gcol 0 (by omega) n)) = b0 (ix1 n) + b1 (ix1 n)
    ∧ Stage.stackB (F := Ideal) b0 b1 b2 b3 b4 b5 b6 b7 (ix2 (0 : Fin 1) (gcol 1024 (by omega) n)) = b2 (ix1 n) + b3 (ix1 n)
    ∧ Stage.stackB (F := Ideal) b0 b1 b2 b3 b4 b5 b6 b7 (ix2 (0 : Fin 1) (gcol 2048 (by omega) n)) = b4 (ix1 n) + b5 (ix1 n)
    ∧ Stage.stackB (F := Ideal) b0 b1 b2 b3 b4 b5 b6 b7 (ix2 (0 : Fin 1) (gcol 3072 (by omega) n)) = b6 (ix1 n) + b7 (ix1 n) := by
  unfold Stage.stackB
  refine ⟨?_, ?_, ?_, ?_⟩ <;> refine (shapeCast_a_1a_apply _ _ 0 _).trans ?_
  · exact catB_piece _ _ _ _ 0 (by decide) _ rfl 0 _ rfl n
  · exact catB_piece _ _ _ _ 1 (by decide) _ rfl 1024 _ rfl n
  · exact catB_piece _ _ _ _ 2 (by decide) _ rfl 2048 _ rfl n
  · exact catB_piece _ _ _ _ 3 (by decide) _ rfl 3072 _ rfl n

end Cert.KernelIdeal.BodyValue

end
-- ==== Proof.FusedIsLstm.lean ====
/-
  The fused form on one block of 256 rows is the LSTM cell of the specification.

  A block's rows are rows `r` of the whole batch; the stacked weight's row `g·1024 + n` is row `n` of the `g`-th gate's
  weight; the stacked bias's column `g·1024 + n` is the sum of the `g`-th gate's two biases at `n`. Under these
  readings the fused pre-activation  (Σₖ x·W + Σₖ h·U) + (bᵢ + bₕ)  is the gate's pre-activation
  Σₖ x·W + bᵢ + Σₖ h·U + bₕ  (addition on the extended reals is commutative and associative), and the cell and
  hidden states follow gate by gate.
-/
import proofs.«171943_j76398878261544_2_alg».proof.Proof.LstmSpec

noncomputable section

open scoped BigOperators

namespace Cert.LstmSpec

open Idealize.ShloMosaic Idealize.ShloMosaic.ValueIdx

/-- One gate: the fused pre-activation at block row `p`, stacked column `j`, is the gate's pre-activation at batch
    row `r`, unit `n`, when the block's row `p` is the batch's row `r` and the stacked row / column `j` is the gate's
    row / entry `n`. -/
theorem fusedPre_eq_gatePre (x h : Act) (wi : Wt) (bi : Bias) (wh : Wt) (bh : Bias)
    (xb hb : ActBlk) (W U : WtCat) (B : BiasCat) (r : Fin 8192) (p : Fin 256) (j : Fin 4096) (n : Fin 1024)
    (hx : ∀ k, xb (ix2 p k) = x (ix2 r k)) (hh : ∀ k, hb (ix2 p k) = h (ix2 r k))
    (hW : ∀ k, W (ix2 j k) = wi (ix2 n k)) (hU : ∀ k, U (ix2 j k) = wh (ix2 n k))
    (hB : B (ix2 (0 : Fin 1) j) = bi (ix1 n) + bh (ix1 n)) :
    fusedPre xb hb W U B p j = gatePre x h wi bi wh bh r n := by
  unfold fusedPre
  rw [hB, Finset.sum_congr rfl (fun k _ => by rw [hx k, hW k] : ∀ k ∈ Finset.univ, xb (ix2 p k) * W (ix2 j k) = x (ix2 r k) * wi (ix2 n k)),
    Finset.sum_congr rfl (fun k _ => by rw [hh k, hU k] : ∀ k ∈ Finset.univ, hb (ix2 p k) * U (ix2 j k) = h (ix2 r k) * wh (ix2 n k))]
  exact gatePre_fused x h wi bi wh bh r n

section Block

variable (x h c : Act) (wfi : Wt) (bfi : Bias) (wfh : Wt) (bfh : Bias) (wii : Wt) (bii : Bias) (wih : Wt) (bih : Bias)
  (wgi : Wt) (bgi : Bias) (wgh : Wt) (bgh : Bias) (woi : Wt) (boi : Bias) (woh : Wt) (boh : Bias)
  (xb hb cb : ActBlk) (W U : WtCat) (B : BiasCat) (r : Fin 8192) (p : Fin 256) (q : Fin 1024)
  (hx : ∀ k, xb (ix2 p k) = x (ix2 r k)) (hh : ∀ k, hb (ix2 p k) = h (ix2 r k)) (hc : cb (ix2 p q) = c (ix2 r q))
  (hW : ∀ n k : Fin 1024, W (ix2 (gcol 0 (by omega) n) k) = wfi (ix2 n k) ∧ W (ix2 (gcol 1024 (by omega) n) k) = wii (ix2 n k)
    ∧ W (ix2 (gcol 2048 (by omega) n) k) = wgi (ix2 n k) ∧ W (ix2 (gcol 3072 (by omega) n) k) = woi (ix2 n k))
  (hU : ∀ n k : Fin 1024, U (ix2 (gcol 0 (by omega) n) k) = wfh (ix2 n k) ∧ U (ix2 (gcol 1024 (by omega) n) k) = wih (ix2 n k)
    ∧ U (ix2 (gcol 2048 (by omega) n) k) = wgh (ix2 n k) ∧ U (ix2 (gcol 3072 (by omega) n) k) = woh (ix2 n k))
  (hB : ∀ n : Fin 1024, B (ix2 (0 : Fin 1) (gcol 0 (by omega) n)) = bfi (ix1 n) + bfh (ix1 n)
    ∧ B (ix2 (0 : Fin 1) (gcol 1024 (by omega) n)) = bii (ix1 n) + bih (ix1 n)
    ∧ B (ix2 (0 : Fin 1) (gcol 2048 (by omega) n)) = bgi (ix1 n) + bgh (ix1 n)
    ∧ B (ix2 (0 : Fin 1) (gcol 3072 (by omega) n)) = boi (ix1 n) + boh (ix1 n))

include hx hh hc hW hU hB in
/-- The fused cell state of block row `p`, unit `q`, is the cell state of batch row `r`, unit `q`. -/
theorem fusedCell_eq_cellAt :
    fusedCell xb hb cb W U B p q = cellAt x h c wfi bfi wfh bfh wii bii wih bih wgi bgi wgh bgh r q := by
  unfold fusedCell cellAt
  rw [fusedPre_eq_gatePre x h wfi bfi wfh bfh xb hb W U B r p _ q hx hh (fun k => (hW q k).1) (fun k => (hU q k).1) (hB q).1,
    fusedPre_eq_gatePre x h wii bii wih bih xb hb W U B r p _ q hx hh (fun k => (hW q k).2.1) (fun k => (hU q k).2.1) (hB q).2.1,
    fusedPre_eq_gatePre x h wgi bgi wgh bgh xb hb W U B r p _ q hx hh (fun k => (hW q k).2.2.1) (fun k => (hU q k).2.2.1) (hB q).2.2.1,
    hc]

include hx hh hc hW hU hB in
/-- The fused hidden state of block row `p`, unit `q`, is the hidden state of batch row `r`, unit `q`. -/
theorem fusedHidden_eq_hiddenAt :
    fusedHidden xb hb cb W U B p q
      = hiddenAt x h c wfi bfi wfh bfh wii bii wih bih wgi bgi wgh bgh woi boi woh boh r q := by
  unfold fusedHidden hiddenAt
  rw [fusedPre_eq_gatePre x h woi boi woh boh xb hb W U B r p _ q hx hh (fun k => (hW q k).2.2.2) (fun k => (hU q k).2.2.2) (hB q).2.2.2,
    fusedCell_eq_cellAt x h c wfi bfi wfh bfh wii bii wih bih wgi bgi wgh bgh woi boi woh boh xb hb cb W U B r p q hx hh hc hW hU hB]

end Block

end Cert.LstmSpec

end
-- ==== Proof.IdealValue.lean ====
/-
  What the fused LSTM-cell program computes on the extended reals: its two result arrays are the specification's
  new hidden state and new cell state of the nineteen argument arrays.

  Grid point `t` of the call works on batch rows 256·t … 256·t + 255: its x, h, c blocks are those rows of the three
  activation arrays, its two weight blocks are the whole stacked weights, its bias block the whole stacked bias row,
  and what it writes back is rows 256·t … of the two results. The body's two stored values at block row `p`, unit `q`
  are the fused cell and hidden states; with the stacked rows and columns read gate by gate these are the
  specification's at batch row 256·t + p. The 32 blocks cover the 8192 rows, so each result array IS the
  specification's array.
-/
import proofs.«171943_j76398878261544_2_alg».proof.Proof.IdealRun
import proofs.«171943_j76398878261544_2_alg».proof.Proof.FusedBody
import proofs.«171943_j76398878261544_2_alg».proof.Proof.FusedIsLstm
import Idealize.ShloMosaic.Lib.Pipeline.Value
import Idealize.ShloMosaic.Lib.StableHlo.Run

set_option maxRecDepth 16384

noncomputable section

namespace Cert.KernelIdeal.RunValue

open Cert.KernelIdeal Cert.KernelIdeal.Gen Cert.KernelIdeal.Run Cert.LstmSpec
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

theorem offsets_zero : (![0, 0] : Fin 2 → Nat) = fun _ => 0 := funext fun a => by fin_cases a <;> rfl

/-! ## The three computed arrays as the call finds them -/

theorem entry_wcat (c : Dev nD) : (atEntry m c main_v1 : S4096x1024.Idx → EReal)
    = Stage.stackW (F := Ideal) (m ((c : Thread nD τ).loc main_arg3)) (m ((c : Thread nD τ).loc main_arg7)) (m ((c : Thread nD τ).loc main_arg11)) (m ((c : Thread nD τ).loc main_arg15)) := by
  dsimp only [atEntry, hostOps0]; after_results; rfl

theorem entry_ucat (c : Dev nD) : (atEntry m c main_v3 : S4096x1024.Idx → EReal)
    = Stage.stackW (F := Ideal) (m ((c : Thread nD τ).loc main_arg5)) (m ((c : Thread nD τ).loc main_arg9)) (m ((c : Thread nD τ).loc main_arg13)) (m ((c : Thread nD τ).loc main_arg17)) := by
  dsimp only [atEntry, hostOps0]; after_results; rfl

theorem entry_bcat (c : Dev nD) : (atEntry m c main_v9 : S1x4096.Idx → EReal)
    = Stage.stackB (F := Ideal) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14)) (m ((c : Thread nD τ).loc main_arg16)) (m ((c : Thread nD τ).loc main_arg18)) := by
  dsimp only [atEntry, hostOps0]; after_results; rfl

/-! ## Where each window's block sits, decided over the 32 grid points -/

theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem point_lt (t : Fin cfg0.N) : t.val < 32 := lt_of_lt_of_eq t.isLt N_0

/-- Batch row of block row `p` at grid point `t`. -/
def rowOf (t : Fin cfg0.N) (p : Fin 256) : Fin 8192 := ⟨t.val * 256 + p.val, by have := point_lt t; omega⟩

theorem emb_x (t : Fin cfg0.N) (p : Fin 256) (k : Fin 1024) : ((cfg0.win 0).blk t).view.emb (ix2 p k) = ix2 (rowOf t p) k := by
  obtain ⟨e0, e1, -⟩ := idx_rows t
  funext a; apply Fin.ext
  match a with
  | ⟨0, _⟩ => show win0_0.index t (0 : Fin 2) * 256 + 1 * p.val = t.val * 256 + p.val; omega
  | ⟨1, _⟩ => show win0_0.index t (1 : Fin 2) * 1024 + 1 * k.val = k.val; omega

theorem emb_h (t : Fin cfg0.N) (p : Fin 256) (k : Fin 1024) : ((cfg0.win 1).blk t).view.emb (ix2 p k) = ix2 (rowOf t p) k := by
  obtain ⟨-, -, e0, e1, -⟩ := idx_rows t
  funext a; apply Fin.ext
  match a with
  | ⟨0, _⟩ => show win0_1.index t (0 : Fin 2) * 256 + 1 * p.val = t.val * 256 + p.val; omega
  | ⟨1, _⟩ => show win0_1.index t (1 : Fin 2) * 1024 + 1 * k.val = k.val; omega

theorem emb_c (t : Fin cfg0.N) (p : Fin 256) (k : Fin 1024) : ((cfg0.win 2).blk t).view.emb (ix2 p k) = ix2 (rowOf t p) k := by
  obtain ⟨-, -, -, -, e0, e1, -⟩ := idx_rows t
  funext a; apply Fin.ext
  match a with
  | ⟨0, _⟩ => show win0_2.index t (0 : Fin 2) * 256 + 1 * p.val = t.val * 256 + p.val; omega
  | ⟨1, _⟩ => show win0_2.index t (1 : Fin 2) * 1024 + 1 * k.val = k.val; omega

theorem emb_hidden (t : Fin cfg0.N) (p : Fin 256) (k : Fin 1024) : ((cfg0.win 6).blk t).view.emb (ix2 p k) = ix2 (rowOf t p) k := by
  obtain ⟨-, -, -, -, -, -, e0, e1, -⟩ := idx_rows t
  funext a; apply Fin.ext
  match a with
  | ⟨0, _⟩ => show win0_6.index t (0 : Fin 2) * 256 + 1 * p.val = t.val * 256 + p.val; omega
  | ⟨1, _⟩ => show win0_6.index t (1 : Fin 2) * 1024 + 1 * k.val = k.val; omega

theorem emb_cell (t : Fin cfg0.N) (p : Fin 256) (k : Fin 1024) : ((cfg0.win 7).blk t).view.emb (ix2 p k) = ix2 (rowOf t p) k := by
  obtain ⟨-, -, -, -, -, -, -, -, e0, e1⟩ := idx_rows t
  funext a; apply Fin.ext
  match a with
  | ⟨0, _⟩ => show win0_7.index t (0 : Fin 2) * 256 + 1 * p.val = t.val * 256 + p.val; omega
  | ⟨1, _⟩ => show win0_7.index t (1 : Fin 2) * 1024 + 1 * k.val = k.val; omega

theorem emb_wcat (t : Fin cfg0.N) (j : Fin 4096) (k : Fin 1024) : ((cfg0.win 3).blk t).view.emb (ix2 j k) = ix2 j k := by
  obtain ⟨e0, e1, -⟩ := idx_whole t
  funext a; apply Fin.ext
  match a with
  | ⟨0, _⟩ => show win0_3.index t (0 : Fin 2) * 4096 + 1 * j.val = j.val; omega
  | ⟨1, _⟩ => show win0_3.index t (1 : Fin 2) * 1024 + 1 * k.val = k.val; omega

theorem emb_ucat (t : Fin cfg0.N) (j : Fin 4096) (k : Fin 1024) : ((cfg0.win 4).blk t).view.emb (ix2 j k) = ix2 j k := by
  obtain ⟨-, -, e0, e1, -⟩ := idx_whole t
  funext a; apply Fin.ext
  match a with
  | ⟨0, _⟩ => show win0_4.index t (0 : Fin 2) * 4096 + 1 * j.val = j.val; omega
  | ⟨1, _⟩ => show win0_4.index t (1 : Fin 2) * 1024 + 1 * k.val = k.val; omega

theorem emb_bcat (t : Fin cfg0.N) (z : Fin 1) (j : Fin 4096) : ((cfg0.win 5).blk t).view.emb (ix2 z j) = ix2 z j := by
  obtain ⟨-, -, -, -, e0, e1⟩ := idx_whole t
  funext a; apply Fin.ext
  match a with
  | ⟨0, _⟩ => show win0_5.index t (0 : Fin 2) * 1 + 1 * z.val = z.val; omega
  | ⟨1, _⟩ => show win0_5.index t (1 : Fin 2) * 4096 + 1 * j.val = j.val; omega

/-! ## The input blocks, read -/

theorem x_block (c : Dev nD) (t : Fin cfg0.N) (p : Fin 256) (k : Fin 1024) :
    blockAt m c 0 t (ix2 p k) = (m ((c : Thread nD τ).loc main_arg0)) (ix2 (rowOf t p) k) := by
  show atEntry m c main_arg0 (((cfg0.win 0).blk t).view.emb (ix2 p k)) = _
  rw [atEntry_arg0, emb_x]

theorem h_block (c : Dev nD) (t : Fin cfg0.N) (p : Fin 256) (k : Fin 1024) :
    blockAt m c 1 t (ix2 p k) = (m ((c : Thread nD τ).loc main_arg1)) (ix2 (rowOf t p) k) := by
  show atEntry m c main_arg1 (((cfg0.win 1).blk t).view.emb (ix2 p k)) = _
  rw [atEntry_arg1, emb_h]

theorem c_block (c : Dev nD) (t : Fin cfg0.N) (p : Fin 256) (k : Fin 1024) :
    blockAt m c 2 t (ix2 p k) = (m ((c : Thread nD τ).loc main_arg2)) (ix2 (rowOf t p) k) := by
  show atEntry m c main_arg2 (((cfg0.win 2).blk t).view.emb (ix2 p k)) = _
  rw [atEntry_arg2, emb_c]

theorem wcat_block (c : Dev nD) (t : Fin cfg0.N) (j : Fin 4096) (k : Fin 1024) :
    blockAt m c 3 t (ix2 j k) = Stage.stackW (F := Ideal) (m ((c : Thread nD τ).loc main_arg3)) (m ((c : Thread nD τ).loc main_arg7)) (m ((c : Thread nD τ).loc main_arg11)) (m ((c : Thread nD τ).loc main_arg15)) (ix2 j k) := by
  show atEntry m c main_v1 (((cfg0.win 3).blk t).view.emb (ix2 j k)) = _
  rw [emb_wcat, entry_wcat]

theorem ucat_block (c : Dev nD) (t : Fin cfg0.N) (j : Fin 4096) (k : Fin 1024) :
    blockAt m c 4 t (ix2 j k) = Stage.stackW (F := Ideal) (m ((c : Thread nD τ).loc main_arg5)) (m ((c : Thread nD τ).loc main_arg9)) (m ((c : Thread nD τ).loc main_arg13)) (m ((c : Thread nD τ).loc main_arg17)) (ix2 j k) := by
  show atEntry m c main_v3 (((cfg0.win 4).blk t).view.emb (ix2 j k)) = _
  rw [emb_ucat, entry_ucat]

theorem bcat_block (c : Dev nD) (t : Fin cfg0.N) (z : Fin 1) (j : Fin 4096) :
    blockAt m c 5 t (ix2 z j) = Stage.stackB (F := Ideal) (m ((c : Thread nD τ).loc main_arg4)) (m ((c : Thread nD τ).loc main_arg6)) (m ((c : Thread nD τ).loc main_arg8)) (m ((c : Thread nD τ).loc main_arg10)) (m ((c : Thread nD τ).loc main_arg12)) (m ((c : Thread nD τ).loc main_arg14)) (m ((c : Thread nD τ).loc main_arg16)) (m ((c : Thread nD τ).loc main_arg18)) (ix2 z j) := by
  show atEntry m c main_v9 (((cfg0.win 5).blk t).view.emb (ix2 z j)) = _
  rw [emb_bcat, entry_bcat]

/-! ## What a grid point writes back is its rows of the specification's arrays -/

theorem hidden_written (c : Dev nD) (t : Fin cfg0.N) :
    (pdat m 0 c).flushed 6 t = ((cfg0.win 6).blk t).view.read (Elt Ideal) (hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  show (cfg0.win 6).cut (grid0.coords t) ((pdat m 0 c).after 6 t) = _
  rw [after_6]
  unfold hiddenBlock
  rw [View.canon_unit_zero offsets_zero]
  simp only [View.ld_unit_zero (S := S256x1024) offsets_zero, View.ld_unit_zero (S := S4096x1024) offsets_zero, View.ld_unit_zero (S := S1x4096) offsets_zero]
  funext j
  obtain ⟨p, q, rfl⟩ : ∃ (p : Fin 256) (q : Fin 1024), j = ix2 p q := ⟨j 0, j 1, eq_ix2 j⟩
  refine (BodyValue.pay3_apply (blockAt m c 0 t) (blockAt m c 1 t) (blockAt m c 2 t) (blockAt m c 3 t) (blockAt m c 4 t) (blockAt m c 5 t) p q).trans ?_
  show _ = hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (((cfg0.win 6).blk t).view.emb (ix2 p q))
  rw [emb_hidden]
  show _ = hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (rowOf t p) q
  exact fusedHidden_eq_hiddenAt _ _ _ _ _ _ _ _ _ _ _ _ _ _ _ _ _ _ _ _ _ _ _ _ _ (rowOf t p) p q
    (x_block m c t p) (h_block m c t p) (c_block m c t p q)
    (fun n k => by rw [wcat_block, wcat_block, wcat_block, wcat_block]; exact BodyValue.stackW_apply _ _ _ _ n k)
    (fun n k => by rw [ucat_block, ucat_block, ucat_block, ucat_block]; exact BodyValue.stackW_apply _ _ _ _ n k)
    (fun n => by rw [bcat_block, bcat_block, bcat_block, bcat_block]; exact BodyValue.stackB_apply _ _ _ _ _ _ _ _ n)

theorem cell_written (c : Dev nD) (t : Fin cfg0.N) :
    (pdat m 0 c).flushed 7 t = ((cfg0.win 7).blk t).view.read (Elt Ideal) (cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  show (cfg0.win 7).cut (grid0.coords t) ((pdat m 0 c).after 7 t) = _
  rw [after_7]
  unfold cellBlock
  rw [View.canon_unit_zero offsets_zero]
  simp only [View.ld_unit_zero (S := S256x1024) offsets_zero, View.ld_unit_zero (S := S4096x1024) offsets_zero, View.ld_unit_zero (S := S1x4096) offsets_zero]
  funext j
  obtain ⟨p, q, rfl⟩ : ∃ (p : Fin 256) (q : Fin 1024), j = ix2 p q := ⟨j 0, j 1, eq_ix2 j⟩
  refine (BodyValue.pay2_apply (blockAt m c 0 t) (blockAt m c 1 t) (blockAt m c 2 t) (blockAt m c 3 t) (blockAt m c 4 t) (blockAt m c 5 t) p q).trans ?_
  show _ = cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (((cfg0.win 7).blk t).view.emb (ix2 p q))
  rw [emb_cell]
  show _ = cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (rowOf t p) q
  exact fusedCell_eq_cellAt _ _ _ _ _ _ _ _ _ _ _ _ _ _ _ (m ((c : Thread nD τ).loc main_arg15)) (m ((c : Thread nD τ).loc main_arg16)) (m ((c : Thread nD τ).loc main_arg17)) (m ((c : Thread nD τ).loc main_arg18)) _ _ _ _ _ _ (rowOf t p) p q
    (x_block m c t p) (h_block m c t p) (c_block m c t p q)
    (fun n k => by rw [wcat_block, wcat_block, wcat_block, wcat_block]; exact BodyValue.stackW_apply _ _ _ _ n k)
    (fun n k => by rw [ucat_block, ucat_block, ucat_block, ucat_block]; exact BodyValue.stackW_apply _ _ _ _ n k)
    (fun n => by rw [bcat_block, bcat_block, bcat_block, bcat_block]; exact BodyValue.stackB_apply _ _ _ _ _ _ _ _ n)

/-! ## The 32 blocks cover the 8192 rows -/

theorem mem_hidden_blk (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10_0).slice (win0_6.rect t)).set ↔ _
  rw [View.set_slice_whole, Rect.mem_set_unit]
  exact Iff.rfl

theorem mem_cell_blk (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v10_1).slice (win0_7.rect t)).set ↔ _
  rw [View.set_slice_whole, Rect.mem_set_unit]
  exact Iff.rfl

theorem hidden_covered (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  have hN : (i 0).val / 256 < cfg0.N := by rw [show cfg0.N = 32 from N_0]; omega
  obtain ⟨-, -, -, -, -, -, e0, e1, -⟩ := idx_rows ⟨(i 0).val / 256, hN⟩
  refine ⟨⟨(i 0).val / 256, hN⟩, flush0_6 _, ?_⟩
  rw [mem_hidden_blk]
  intro a
  match a with
  | ⟨0, _⟩ =>
    show win0_6.index ⟨(i 0).val / 256, hN⟩ (0 : Fin 2) * 256 ≤ (i 0).val ∧ (i 0).val < win0_6.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_6.index ⟨(i 0).val / 256, hN⟩ (1 : Fin 2) * 1024 ≤ (i 1).val ∧ (i 1).val < win0_6.index ⟨(i 0).val / 256, hN⟩ (1 : Fin 2) * 1024 + 1024
    rw [e1]; omega

theorem cell_covered (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have hN : (i 0).val / 256 < cfg0.N := by rw [show cfg0.N = 32 from N_0]; omega
  obtain ⟨-, -, -, -, -, -, -, -, e0, e1⟩ := idx_rows ⟨(i 0).val / 256, hN⟩
  refine ⟨⟨(i 0).val / 256, hN⟩, flush0_7 _, ?_⟩
  rw [mem_cell_blk]
  intro a
  match a with
  | ⟨0, _⟩ =>
    show win0_7.index ⟨(i 0).val / 256, hN⟩ (0 : Fin 2) * 256 ≤ (i 0).val ∧ (i 0).val < win0_7.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, hN⟩ (1 : Fin 2) * 1024 ≤ (i 1).val ∧ (i 1).val < win0_7.index ⟨(i 0).val / 256, hN⟩ (1 : Fin 2) * 1024 + 1024
    rw [e1]; omega

/-! ## The two result arrays after the run -/

theorem hidden_final (c : Dev nD) : (pdat m 0 c).arrAt 6 cfg0.N = hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (pdat m 0 c).arrAt_eq_of_cover 6 _ (fun t _ => hidden_written m c t) hidden_covered

theorem cell_final (c : Dev nD) : (pdat m 0 c).arrAt 7 cfg0.N = cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (pdat m 0 c).arrAt_eq_of_cover 7 _ (fun t _ => cell_written m c t) cell_covered

/-- The run, read: the first result is the new hidden state, the second the new cell state, the arguments unchanged. -/
theorem run : θ_run defs (onTc (τ := τ) (main (F := Ideal))) ⟨m, fun _ => 0, ρ⟩ fun r => ∀ c : Dev nD,
      r.2.mem ((c : Thread nD τ).loc main_v10_0) = hiddenNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c : Thread nD τ).loc main_v10_1) = cellNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨((h c).1 6).trans (hidden_final m c), ((h c).1 7).trans (cell_final m c),
      args_kept m (pdat m) (pdat_A m) r h c⟩)
    (run_main m ρ)

end Cert.KernelIdeal.RunValue

end
-- ==== Proof.RefIsLstm.lean ====
/-
  The reference program computes the LSTM cell of the specification.

  Each of the four gates is computed by the same operations on its own six arguments: the two weights are
  transposed, so that the matrix product's element at row `r`, unit `n` is  Σₖ x[r,k]·W[n,k]; each bias is broadcast
  along the rows; the four terms are added in the order  ((x·Wᵢᵀ + bᵢ) + h·Wₕᵀ) + bₕ, the specification's own arrangement.
  The sigmoid is spelt  1 / (1 + exp(−p))  with the literal one, which is the specification's logistic function by
  definition. The cell and hidden states are then products and sums of these, element by element.

  The forget gate's stages, read as functions of six arbitrary arrays, are the other gates' stages: the same
  operations in the same order. So one pre-activation lemma and one sigmoid lemma, stated for the forget gate's stages at
  arbitrary arguments, serve all four gates.
-/
import proofs.«171943_j76398878261544_2_alg».proof.Proof.Gen.ReferenceIdeal.Read
import proofs.«171943_j76398878261544_2_alg».proof.Proof.LstmSpec
import Idealize.ShloMosaic.Lib.IdealHost

noncomputable section

open scoped BigOperators

namespace Cert.ReferenceIdeal.RefValue

open Idealize.ShloMosaic Idealize.ShloMosaic.ValueIdx Cert.ReferenceIdeal Cert.ReferenceIdeal.Read Cert.LstmSpec

/-! ## The index maps of one gate's layout operations, at row `r`, unit `n` -/

/-- The input-side product reads the activations at row `r`, feature `k`. -/
theorem lhs_in (r : Fin 8192) (n k : Fin 1024) : lidx_main_v1 (ix2 r n) k = ix2 r k :=
  funext fun a => match a with | ⟨0, _⟩ => rfl | ⟨1, _⟩ => rfl

/-- The input-side product reads the transposed weight at `(k, n)`, which is the weight at `(n, k)`. -/
theorem rhs_in (r : Fin 8192) (n k : Fin 1024) : idx_main_v0 (ridx_main_v1 (ix2 r n) k) = ix2 n k :=
  funext fun a => match a with | ⟨0, _⟩ => rfl | ⟨1, _⟩ => rfl

/-- The input-side bias, broadcast along the rows, is read at unit `n`. -/
theorem bias_in (r : Fin 8192) (n : Fin 1024) : idx_main_v2 (idx_main_v3 (ix2 r n)) = ix1 n :=
  funext fun a => match a with | ⟨0, _⟩ => rfl

/-- The hidden-side product reads the activations at row `r`, feature `k`. -/
theorem lhs_hid (r : Fin 8192) (n k : Fin 1024) : lidx_main_v6 (ix2 r n) k = ix2 r k :=
  funext fun a => match a with | ⟨0, _⟩ => rfl | ⟨1, _⟩ => rfl

/-- The hidden-side product reads the transposed weight at `(k, n)`, which is the weight at `(n, k)`. -/
theorem rhs_hid (r : Fin 8192) (n k : Fin 1024) : idx_main_v5 (ridx_main_v6 (ix2 r n) k) = ix2 n k :=
  funext fun a => match a with | ⟨0, _⟩ => rfl | ⟨1, _⟩ => rfl

/-- The hidden-side bias, broadcast along the rows, is read at unit `n`. -/
theorem bias_hid (r : Fin 8192) (n : Fin 1024) : idx_main_v8 (idx_main_v9 (ix2 r n)) = ix1 n :=
  funext fun a => match a with | ⟨0, _⟩ => rfl

/-! ## One gate -/

/-- The pre-activation stage at row `r`, unit `n` is the specification's pre-activation. -/
theorem pre_at (x h : (⟨S8192x1024, .f32⟩ : BufTy).Contents (Elt Ideal)) (wi : (⟨S1024x1024, .f32⟩ : BufTy).Contents (Elt Ideal)) (bi : (⟨S1024, .f32⟩ : BufTy).Contents (Elt Ideal)) (wh : (⟨S1024x1024, .f32⟩ : BufTy).Contents (Elt Ideal)) (bh : (⟨S1024, .f32⟩ : BufTy).Contents (Elt Ideal)) (r : Fin 8192) (n : Fin 1024) :
    val_main_v10 (F := Ideal) x h wi bi wh bh (ix2 r n) = gatePre x h wi bi wh bh r n := by
  rw [val_main_v10_apply, val_main_v7_apply, val_main_v4_apply, val_main_v1_apply, val_main_v3_apply, val_main_v2_apply,
    val_main_v6_apply, val_main_v9_apply, val_main_v8_apply, bias_in, bias_hid]
  simp only [val_main_v0_apply, val_main_v5_apply, lhs_in, rhs_in, lhs_hid, rhs_hid, Ideal.addf_def]
  rfl

/-- The sigmoid stage at row `r`, unit `n` is the logistic function of the specification's pre-activation:
    `1 / (1 + exp (−p))` with the literal one is that function's definition. -/
theorem sig_at (x h : (⟨S8192x1024, .f32⟩ : BufTy).Contents (Elt Ideal)) (wi : (⟨S1024x1024, .f32⟩ : BufTy).Contents (Elt Ideal)) (bi : (⟨S1024, .f32⟩ : BufTy).Contents (Elt Ideal)) (wh : (⟨S1024x1024, .f32⟩ : BufTy).Contents (Elt Ideal)) (bh : (⟨S1024, .f32⟩ : BufTy).Contents (Elt Ideal)) (r : Fin 8192) (n : Fin 1024) :
    val_main_v16 (F := Ideal) x h wi bi wh bh (ix2 r n) = Ideal.logistic (gatePre x h wi bi wh bh r n) := by
  rw [val_main_v16_apply, val_main_v15_apply, val_main_cst_0_apply, val_main_v14_apply, val_main_v13_apply,
    val_main_cst_apply, val_main_v12_apply, val_main_v11_apply, pre_at]
  simp only [Ideal.hostDivf_def, Ideal.addf_def, Ideal.hostUnary_exp_def, Ideal.hostNegf_def, Ideal.negf_def,
    Ideal.ofBits_def, Ideal.ofBits_one_f32]
  rfl

/-! ## The other three gates run the same operations -/

/-- The input gate's sigmoid stage is the forget gate's, at the input gate's arguments. -/
theorem sig_input (x h : (⟨S8192x1024, .f32⟩ : BufTy).Contents (Elt Ideal)) (wi : (⟨S1024x1024, .f32⟩ : BufTy).Contents (Elt Ideal)) (bi : (⟨S1024, .f32⟩ : BufTy).Contents (Elt Ideal)) (wh : (⟨S1024x1024, .f32⟩ : BufTy).Contents (Elt Ideal)) (bh : (⟨S1024, .f32⟩ : BufTy).Contents (Elt Ideal)) : val_main_v33 (F := Ideal) x h wi bi wh bh = val_main_v16 (F := Ideal) x h wi bi wh bh := rfl

/-- The candidate's pre-activation stage is the forget gate's, at the candidate's arguments. -/
theorem pre_cand (x h : (⟨S8192x1024, .f32⟩ : BufTy).Contents (Elt Ideal)) (wi : (⟨S1024x1024, .f32⟩ : BufTy).Contents (Elt Ideal)) (bi : (⟨S1024, .f32⟩ : BufTy).Contents (Elt Ideal)) (wh : (⟨S1024x1024, .f32⟩ : BufTy).Contents (Elt Ideal)) (bh : (⟨S1024, .f32⟩ : BufTy).Contents (Elt Ideal)) : val_main_v44 (F := Ideal) x h wi bi wh bh = val_main_v10 (F := Ideal) x h wi bi wh bh := rfl

/-- The output gate's sigmoid stage is the forget gate's, at the output gate's arguments. -/
theorem sig_output (x h : (⟨S8192x1024, .f32⟩ : BufTy).Contents (Elt Ideal)) (wi : (⟨S1024x1024, .f32⟩ : BufTy).Contents (Elt Ideal)) (bi : (⟨S1024, .f32⟩ : BufTy).Contents (Elt Ideal)) (wh : (⟨S1024x1024, .f32⟩ : BufTy).Contents (Elt Ideal)) (bh : (⟨S1024, .f32⟩ : BufTy).Contents (Elt Ideal)) : val_main_v65 (F := Ideal) x h wi bi wh bh = val_main_v16 (F := Ideal) x h wi bi wh bh := rfl

/-! ## The cell and the hidden state -/

/-- The new cell state's stage at row `r`, unit `n`. -/
theorem cell_at (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (r : Fin 8192) (n : Fin 1024) :
    val_main_v48 (F := Ideal) x0 x1 x2 x3 x4 x5 x6 x7 x8 x9 x10 x11 x12 x13 x14 (ix2 r n) = cellAt x0 x1 x2 x3 x4 x5 x6 x7 x8 x9 x10 x11 x12 x13 x14 r n := by
  rw [val_main_v48_apply, val_main_v46_apply, val_main_v47_apply, val_main_v45_apply, sig_input, pre_cand, sig_at, sig_at, pre_at]
  simp only [Ideal.addf_def, Ideal.mulf_def, Ideal.hostUnary_tanh_def]
  rfl

/-- The reference's new cell state is the specification's. -/
theorem cell_eq (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) :
    Cert.ReferenceIdeal.Read.val_main_v48 (F := Ideal) x0 x1 x2 x3 x4 x5 x6 x7 x8 x9 x10 x11 x12 x13 x14 = Cert.LstmSpec.cellNext x0 x1 x2 x3 x4 x5 x6 x7 x8 x9 x10 x11 x12 x13 x14 := by
  funext j
  obtain ⟨r, n, rfl⟩ : ∃ (r : Fin 8192) (n : Fin 1024), j = ix2 r n := ⟨j 0, j 1, eq_ix2 j⟩
  rw [cell_at]
  rfl

/-- The new hidden state's stage at row `r`, unit `n`. -/
theorem hidden_at (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) (r : Fin 8192) (n : Fin 1024) :
    val_main_v67 (F := Ideal) x0 x1 x2 x3 x4 x5 x6 x7 x8 x9 x10 x11 x12 x13 x14 x15 x16 x17 x18 (ix2 r n) = hiddenAt x0 x1 x2 x3 x4 x5 x6 x7 x8 x9 x10 x11 x12 x13 x14 x15 x16 x17 x18 r n := by
  rw [val_main_v67_apply, val_main_v66_apply, sig_output, sig_at, cell_at]
  simp only [Ideal.mulf_def, Ideal.hostUnary_tanh_def]
  rfl

/-- The reference's new hidden state is the specification's. -/
theorem hidden_eq (x0 x1 x2 : (⟨S8192x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal)) :
    Cert.ReferenceIdeal.Read.val_main_v67 (F := Ideal) x0 x1 x2 x3 x4 x5 x6 x7 x8 x9 x10 x11 x12 x13 x14 x15 x16 x17 x18 = Cert.LstmSpec.hiddenNext x0 x1 x2 x3 x4 x5 x6 x7 x8 x9 x10 x11 x12 x13 x14 x15 x16 x17 x18 := by
  funext j
  obtain ⟨r, n, rfl⟩ : ∃ (r : Fin 8192) (n : Fin 1024), j = ix2 r n := ⟨j 0, j 1, eq_ix2 j⟩
  rw [hidden_at]
  rfl

end Cert.ReferenceIdeal.RefValue

end
-- ==== Proof.lean ====
/-
  A fused LSTM cell against its reference, on the extended reals.

  The program stacks the four gates' input-side weights into one 4096 × 1024 array (and the hidden-side weights into
  another), rounds them to bf16, sums each gate's two biases and lays the four sums side by side, then runs one call
  over 32 blocks of 256 batch rows: per block two matrix products against the stacked weights (each contracting the
  last axes), the bias row added, the four gates cut out of the 4096 columns, and
      c' = σ(f)·c + σ(i)·tanh(g),   h' = σ(o)·tanh(c').
  The reference computes each gate as  x·Wᵀ + bᵢ + h·Uᵀ + bₕ  on the whole batch, with σ(p) spelt 1/(1 + e^(−p)).

  On the extended reals a change of float format is the identity, σ IS 1/(1 + e^(−p)), a matrix product is the plain
  sum over the contracted axis, and the two arrangements of a gate's pre-activation,
      (Σₖ x·W + Σₖ h·U) + (bᵢ + bₕ)   and   Σₖ x·W + bᵢ + Σₖ h·U + bₕ,
  agree because addition there is commutative and associative (also at the infinities): no finiteness hypothesis is
  used. Both programs' results are therefore the specification's arrays (LstmSpec.lean): the kernel's by reading what
  each grid point writes back (IdealValue.lean over IdealRun.lean, FusedBody.lean, FusedIsLstm.lean), the reference's
  operation by operation (RefIsLstm.lean). The three frames: each kernel program's run (IdealRun.lean at the extended
  reals, BitsRun.lean at words: the same text) ends with the arguments as launched, since no host operation writes an
  argument and the call only writes its two results; the reference's is its run with the results dropped. The
  idealization rewrote nothing, so there is nothing to preserve.
-/
import proofs.«171943_j76398878261544_2_alg».proof.Defs
import proofs.«171943_j76398878261544_2_alg».proof.Proof.Gen.Kernel
import proofs.«171943_j76398878261544_2_alg».proof.Proof.Gen.Kernel.Skeleton
import proofs.«171943_j76398878261544_2_alg».proof.Proof.Gen.Kernel.Launch
import proofs.«171943_j76398878261544_2_alg».proof.Proof.Gen.Kernel.Points
import proofs.«171943_j76398878261544_2_alg».proof.Proof.Gen.KernelIdeal
import proofs.«171943_j76398878261544_2_alg».proof.Proof.Gen.KernelIdeal.Skeleton
import proofs.«171943_j76398878261544_2_alg».proof.Proof.Gen.KernelIdeal.Launch
import proofs.«171943_j76398878261544_2_alg».proof.Proof.Gen.KernelIdeal.Points
import proofs.«171943_j76398878261544_2_alg».proof.Proof.Gen.ReferenceIdeal
import proofs.«171943_j76398878261544_2_alg».proof.Proof.Gen.Pre_finite_inputs
import proofs.«171943_j76398878261544_2_alg».proof.Proof.Gen.ReferenceIdeal.Run
import proofs.«171943_j76398878261544_2_alg».proof.Proof.Gen.ReferenceIdeal.Read
import proofs.«171943_j76398878261544_2_alg».proof.Proof.BitsRun
import proofs.«171943_j76398878261544_2_alg».proof.Proof.IdealValue
import proofs.«171943_j76398878261544_2_alg».proof.Proof.RefIsLstm
import Idealize.ShloMosaic.Adequacy
import Idealize.ShloMosaic.Init

noncomputable section

namespace Cert.Proof

open Idealize.ShloMosaic Idealize.SL.Sem

theorem frame_kernel : Cert.frame_Kernel := fun m ρ _ => Cert.Kernel.Run.frame m ρ

theorem frame_kernel_ideal : Cert.frame_KernelIdeal := fun m ρ _ => Cert.KernelIdeal.Run.frame m ρ

/-- The reference is host operations only: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

set_option maxHeartbeats 1000000 in
/-- Both programs end with the specification's new hidden state and new cell state of the (agreeing) arguments. -/
theorem algebraic : Cert.algebraic_KernelIdeal_ReferenceIdeal := by
  intro m ρ m' ρ' _ hagree
  refine ⟨fun c => Cert.LstmSpec.hiddenNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.LstmSpec.cellNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.KernelIdeal.RunValue.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18⟩ := hagree c
  refine ⟨(h c).1.trans (((Cert.ReferenceIdeal.Read.val_main_v67_eq _ _ _ _ _ _ _ _ _ _ _ _ _ _ _ _ _ _ _).trans (Cert.ReferenceIdeal.RefValue.hidden_eq _ _ _ _ _ _ _ _ _ _ _ _ _ _ _ _ _ _ _)).trans ?_),
    (h c).2.1.trans (((Cert.ReferenceIdeal.Read.val_main_v48_eq _ _ _ _ _ _ _ _ _ _ _ _ _ _ _).trans (Cert.ReferenceIdeal.RefValue.cell_eq _ _ _ _ _ _ _ _ _ _ _ _ _ _ _)).trans ?_),
    (h c).2.2⟩
  · rw [a0, a1, a2, a3, a4, a5, a6, a7, a8, a9, a10, a11, a12, a13, a14, a15, a16, a17, a18]
  · rw [a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
